-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256x256 .f32) (main_arg10 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg6 : FVec F S256x256 .f32) (main_arg7 : FVec F S256 .f32) (main_arg8 : FVec F S256 .f32) (main_arg9 : FVec F S256x256 .f32) (main_arg10 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_v33

def fn {F : FTy → Type} [FloatOps F] (main_arg0 : FVec F S50000x256 .f32) (main_arg1 : IVec S800000 32) (main_arg2 : IVec S800000 32) (main_arg3 : FVec F S256x256 .f32) (main_arg4 : FVec F S256 .f32) (main_arg5 : FVec F S256 .f32) (main_arg6 : FVec F S256x256 .f32) (main_arg7 : FVec F S256 .f32) (main_arg8 : FVec F S256 .f32) (main_arg9 : FVec F S256x256 .f32) (main_arg10 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1x256 : Shape := ⟨2, ![1, 256]⟩
abbrev S2000x256 : Shape := ⟨2, ![2000, 256]⟩
abbrev S_ : Shape := ⟨0, ![]⟩
abbrev S800000x1 : Shape := ⟨2, ![800000, 1]⟩
abbrev S800000x256 : Shape := ⟨2, ![800000, 256]⟩

abbrev nBuf : Space → Nat
  | .hbm => 32
  | .vmem => 20
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S50000x256, .f32⟩
  | .hbm, ⟨17, _⟩ => ⟨S50000x256, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x256, .f32⟩
  | .hbm, ⟨27, _⟩ => ⟨S_, .f32⟩
  | .hbm, ⟨28, _⟩ => ⟨S50000x256, .f32⟩
  | .hbm, ⟨29, _⟩ => ⟨S800000x1, .i32⟩
  | .hbm, ⟨30, _⟩ => ⟨S50000x256, .f32⟩
  | .hbm, ⟨31, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S1x256, .f32⟩
  | .local _ .vmem, ⟨4, _⟩ => ⟨S1x256, .f32⟩
  | .local _ .vmem, ⟨5, _⟩ => ⟨S256x256, .f32⟩
  | .local _ .vmem, ⟨6, _⟩ => ⟨S1x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S1x256, .f32⟩
  | .local _ .vmem, ⟨16, _⟩ => ⟨S256x256, .f32⟩
  | .local _ .vmem, ⟨17, _⟩ => ⟨S1x256, .f32⟩
  | .local _ .vmem, ⟨18, _⟩ => ⟨S2000x256, .f32⟩
  | .local _ .vmem, ⟨19, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  shapeCasts_S2000x256_S2000x256 : S2000x256.ShapeCasts S2000x256
  dot_S2000x256_S256x256_S2000x256_1_0_0_1_n_n_wf : DotDims.WF S2000x256 S256x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S2000x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v15) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5_0) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S1x256 : Shape := ⟨2, ![1, 256]⟩
abbrev S_ : Shape := ⟨0, ![]⟩
abbrev S800000x1 : Shape := ⟨2, ![800000, 1]⟩
abbrev S800000x256 : Shape := ⟨2, ![800000, 256]⟩

abbrev nBuf : Space → Nat
  | .hbm => 54
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S50000x256, .f32⟩
  | .hbm, ⟨12, _⟩ => ⟨S1x256, .f32⟩
  | .hbm, ⟨13, _⟩ => ⟨S50000x256, .f32⟩
  | .hbm, ⟨14, _⟩ => ⟨S50000x256, .f32⟩
  | .hbm, ⟨15, _⟩ => ⟨S_, .f32⟩
  | .hbm, ⟨16, _⟩ => ⟨S50000x256, .f32⟩
  | .hbm, ⟨17, _⟩ => ⟨S50000x256, .i1⟩
  | .hbm, ⟨18, _⟩ => ⟨S1x256, .f32⟩
  | .hbm, ⟨19, _⟩ => ⟨S50000x256, .f32⟩
  | .hbm, ⟨20, _⟩ => ⟨S50000x256, .f32⟩
  | .hbm, ⟨21, _⟩ => ⟨S50000x256, .f32⟩
  | .hbm, ⟨22, _⟩ => ⟨S50000x256, .f32⟩
  | .hbm, ⟨23, _⟩ => ⟨S1x256, .f32⟩
  | .hbm, ⟨24, _⟩ => ⟨S50000x256, .f32⟩
  | .hbm, ⟨25, _⟩ => ⟨S50000x256, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x256, .f32⟩
  | .hbm, ⟨35, _⟩ => ⟨S_, .f32⟩
  | .hbm, ⟨36, _⟩ => ⟨S50000x256, .f32⟩
  | .hbm, ⟨37, _⟩ => ⟨S800000x1, .i32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .i1⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S50000x256, .f32⟩
  | .hbm, ⟨48, _⟩ => ⟨S1x256, .f32⟩
  | .hbm, ⟨49, _⟩ => ⟨S50000x256, .f32⟩
  | .hbm, ⟨50, _⟩ => ⟨S50000x256, .f32⟩
  | .hbm, ⟨51, _⟩ => ⟨S_, .f32⟩
  | .hbm, ⟨52, _⟩ => ⟨S50000x256, .f32⟩
  | .hbm, ⟨53, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call2_cst : Ref sig .tc := ⟨.hbm, 51, rfl⟩
abbrev main_call2_v0 : Ref sig .tc := ⟨.hbm, 52, rfl⟩
abbrev main_v35 : Ref sig .tc := ⟨.hbm, 53, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S_S800000 : S_.BroadcastsInDim S800000 (![] : Fin 0 → Fin S800000.rank)
  bcast_S800000_S800000x1_0 : S800000.BroadcastsInDim S800000x1 (![0] : Fin 1 → Fin S800000x1.rank)
  dot_S50000x256_S256x256_S50000x256_1_0_0_1_n_n_wf : DotDims.WF S50000x256 S256x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1

variable [Facts₀]

def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf

class Facts : Prop extends Facts₀ where

variable [Facts]
-- ==== Proof.KernelRun.lean ====
/-
  The kernel program's run, with its result read.

  The program is two kernels among stretches of host operations. Its buffers' contents at each boundary form a
  chain: the launch memory, then the five bias and slope rows reshaped, then the first kernel's two arrays written,
  then the gather and the scatter-add along the edges, then the second kernel's array written. Every weakly fair
  execution terminates with every unscoped buffer at the end of that chain; read at the result buffer and at the
  eleven arguments (which nothing writes) this is the statement below.
-/
import proofs.«176901_j21526376087644_1_alg».proof.Proof.Gen.KernelIdeal.Frame

set_option maxRecDepth 16384

noncomputable section

namespace Cert.MsgPass

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    last boundary's contents and the arguments as launched. -/
theorem kernel_run : θ_run defs (onTc (τ := τ) (main (F := F))) ⟨m, fun _ => 0, ρ⟩ (fun r => ∀ c : Dev nD,
      r.2.mem ((c.tc : Thread nD τ).loc main_v16) = W4 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v16 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.MsgPass

end
-- ==== Proof.Spec.lean ====
/-
  One round of message passing on a graph, entry by entry on the extended reals.

  A dense layer sends a matrix `a` (n rows, 256 columns) to `a · W + b`: entry (p, q) is
  `Σ_k a(p, k) · W(k, q) + b(0, q)`, the bias a 1 × 256 row. A parametric rectifier with a slope row `α` sends an entry
  `z` of column `q` to `z` when `z > 0` and to `α(0, q) · z` otherwise. The hidden features are the rectified first
  layer, the messages a second dense layer of them; after the messages have been summed along the edges into `agg`, the
  result is `max ((prelu(agg) + hidden) · W' + b', 0)`.

  Every entry of a dense layer's row `p` reads row `p` of its operand only, so a block of rows of the result is the
  same layer applied to that block of rows: the statements below hold for any number of rows `n`, and are used at the
  2000 rows of a block and at all 50000.
-/
import Idealize.ShloMosaic.Lib.ValueIdx
import Idealize.ShloMosaic.PureOps.Ideal.Laws

noncomputable section

namespace Cert.MsgPass

open Idealize.ShloMosaic Idealize.ShloMosaic.ValueIdx

/-- An `a × b` matrix of extended reals, indexed as the programs index a rank-2 array. -/
abbrev Mat (a b : ℕ) : Type := (⟨2, ![a, b]⟩ : Shape).Idx → EReal

/-- A vector of 256 entries as a 1 × 256 row. -/
def row (v : (⟨1, ![256]⟩ : Shape).Idx → EReal) : Mat 1 256 := fun j => v (ix1 (j 1))

/-- The float word of zero. -/
abbrev zeroWord : EReal := FloatOps.ofBits (F := Ideal) .f32 0x00000000#32

/-- Entry (p, q) of the dense layer `a · W + b`. -/
def dense {n : ℕ} (a : Mat n 256) (W : Mat 256 256) (b : Mat 1 256) (p : Fin n) (q : Fin 256) : EReal :=
  FloatOps.addf (F := Ideal) (φ := .f32) (∑ k : Fin 256, a (ix2 p k) * W (ix2 k q)) (b (ix2 (0 : Fin 1) q))

/-- The parametric rectifier on an entry of column `q`: `z` where `z > 0`, `α(0, q) · z` elsewhere. -/
def prelu (α : Mat 1 256) (q : Fin 256) (z : EReal) : EReal :=
  Scalar.select (FloatOps.cmpf (F := Ideal) (φ := .f32) .ogt z zeroWord) z
    (FloatOps.mulf (F := Ideal) (φ := .f32) (α (ix2 (0 : Fin 1) q)) z)

/-- A dense layer's entry of row `p` reads row `p` of its operand only. -/
theorem dense_congr {n n' : ℕ} (a : Mat n 256) (a' : Mat n' 256) (W : Mat 256 256) (b : Mat 1 256) (p : Fin n)
    (p' : Fin n') (q : Fin 256) (h : ∀ k : Fin 256, a (ix2 p k) = a' (ix2 p' k)) :
    dense a W b p q = dense a' W b p' q := by
  unfold dense
  exact congrArg (fun s => FloatOps.addf (F := Ideal) (φ := .f32) s (b (ix2 (0 : Fin 1) q)))
    (Finset.sum_congr rfl fun k _ => by rw [h k])

/-- The hidden features: the first dense layer, rectified with slope row `α`. -/
def hidden {n : ℕ} (x : Mat n 256) (W : Mat 256 256) (b α : Mat 1 256) : Mat n 256 :=
  fun i => prelu α (i 1) (dense x W b (i 0) (i 1))

/-- The messages: a second dense layer of the hidden features. -/
def message {n : ℕ} (x : Mat n 256) (W : Mat 256 256) (b α : Mat 1 256) (W₂ : Mat 256 256) (b₂ : Mat 1 256) : Mat n 256 :=
  fun i => dense (hidden x W b α) W₂ b₂ (i 0) (i 1)

/-- What the last layer multiplies: the rectified aggregate plus the hidden features (the skip connection). -/
def skip {n : ℕ} (agg h : Mat n 256) (α : Mat 1 256) : Mat n 256 :=
  fun i => FloatOps.addf (F := Ideal) (φ := .f32) (prelu α (i 1) (agg i)) (h i)

/-- The result: the last dense layer of the skip sum, clamped below at zero. -/
def output {n : ℕ} (agg h : Mat n 256) (α : Mat 1 256) (W : Mat 256 256) (b : Mat 1 256) : Mat n 256 :=
  fun i => FloatOps.maximumf (F := Ideal) (φ := .f32) (dense (skip agg h α) W b (i 0) (i 1)) zeroWord

/-! ## A block of rows of a layer is the layer of the block of rows -/

/-- Row `p` of the hidden features reads row `p` of `x` only. -/
theorem hidden_rows {n n' : ℕ} (x : Mat n 256) (x' : Mat n' 256) (W : Mat 256 256) (b α : Mat 1 256)
    (i : (⟨2, ![n, 256]⟩ : Shape).Idx) (i' : (⟨2, ![n', 256]⟩ : Shape).Idx) (hq : (i 1).val = (i' 1).val)
    (hrow : ∀ k : Fin 256, x (ix2 (i 0) k) = x' (ix2 (i' 0) k)) :
    hidden x W b α i = hidden x' W b α i' := by
  have e : (i 1 : Fin 256) = i' 1 := Fin.ext hq
  unfold hidden
  rw [e]
  exact congrArg (prelu α (i' 1)) (dense_congr x x' W b (i 0) (i' 0) (i' 1) hrow)

/-- Row `p` of the messages reads row `p` of `x` only. -/
theorem message_rows {n n' : ℕ} (x : Mat n 256) (x' : Mat n' 256) (W : Mat 256 256) (b α : Mat 1 256)
    (W₂ : Mat 256 256) (b₂ : Mat 1 256)
    (i : (⟨2, ![n, 256]⟩ : Shape).Idx) (i' : (⟨2, ![n', 256]⟩ : Shape).Idx) (hq : (i 1).val = (i' 1).val)
    (hrow : ∀ k : Fin 256, x (ix2 (i 0) k) = x' (ix2 (i' 0) k)) :
    message x W b α W₂ b₂ i = message x' W b α W₂ b₂ i' := by
  have e : (i 1 : Fin 256) = i' 1 := Fin.ext hq
  unfold message
  rw [e]
  exact dense_congr _ _ W₂ b₂ (i 0) (i' 0) (i' 1) fun k =>
    hidden_rows x x' W b α (ix2 (i 0) k) (ix2 (i' 0) k) rfl hrow

/-- Row `p` of the result reads row `p` of the aggregate and of the hidden features only. -/
theorem output_rows {n n' : ℕ} (agg h : Mat n 256) (agg' h' : Mat n' 256) (α : Mat 1 256) (W : Mat 256 256) (b : Mat 1 256)
    (i : (⟨2, ![n, 256]⟩ : Shape).Idx) (i' : (⟨2, ![n', 256]⟩ : Shape).Idx) (hq : (i 1).val = (i' 1).val)
    (hagg : ∀ k : Fin 256, agg (ix2 (i 0) k) = agg' (ix2 (i' 0) k))
    (hh : ∀ k : Fin 256, h (ix2 (i 0) k) = h' (ix2 (i' 0) k)) :
    output agg h α W b i = output agg' h' α W b i' := by
  have e : (i 1 : Fin 256) = i' 1 := Fin.ext hq
  unfold output
  rw [e]
  refine congrArg (fun s => FloatOps.maximumf (F := Ideal) (φ := .f32) s zeroWord)
    (dense_congr _ _ W b (i 0) (i' 0) (i' 1) fun k => ?_)
  show FloatOps.addf (F := Ideal) (φ := .f32) (prelu α k (agg (ix2 (i 0) k))) (h (ix2 (i 0) k))
    = FloatOps.addf (F := Ideal) (φ := .f32) (prelu α k (agg' (ix2 (i' 0) k))) (h' (ix2 (i' 0) k))
  rw [hagg k, hh k]

end Cert.MsgPass

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.Payload.lean ====
/-
  What the two kernel bodies compute on a block of 2000 rows, entry by entry.

  The first body forms, from a block `x` of 2000 rows and the weights, the hidden features and the messages of those
  rows; the second, from the blocks of the aggregate and of the hidden features, the result's rows. A product of
  matrices into a zero accumulator is the plain sum of products, a rounding to a shorter format is the identity on
  the extended reals, and a 1 × 256 row laid along 2000 rows is read at its own column: so each body is the
  corresponding layer of `Spec.lean` at n = 2000.
-/
import proofs.«176901_j21526376087644_1_alg».proof.Proof.Gen.KernelIdeal.Skeleton
import proofs.«176901_j21526376087644_1_alg».proof.Proof.Spec
import proofs.«176901_j21526376087644_1_alg».proof.Proof.LibPlainMatmul
import proofs.«176901_j21526376087644_1_alg».proof.Proof.LibRowBroadcast
import Idealize.ShloMosaic.Lib.Pipeline.Value

noncomputable section

namespace Cert.MsgPass

open Idealize.ShloMosaic Idealize.ShloMosaic.ValueIdx Cert.KernelIdeal Cert.KernelIdeal.Gen

/-- A dense layer as a body spells it — both operands rounded, multiplied into the zero splat, the bias row laid
    along the rows and added — read at (p, q). -/
theorem blockDense (a : FVec Ideal S2000x256 .f32) (w : FVec Ideal S256x256 .f32) (b : FVec Ideal S1x256 .f32)
    (h1 : (FTy.bf16).bits < (FTy.f32).bits) (hb : S1x256.Broadcasts S2000x256)
    (p : Fin 2000) (q : Fin 256) :
    addf (F := Ideal) (matmul dot_S2000x256_S256x256_S2000x256_1_0_0_1_n_n none (truncf (F := Ideal) .bf16 a h1)
        (truncf (F := Ideal) .bf16 w h1) (constant S2000x256 .f32 0x00000000#32)) (broadcastTo S2000x256 b hb) (ix2 p q)
      = dense a w b p q := by
  show FloatOps.addf (F := Ideal) (φ := .f32) (FloatOps.matmul (F := Ideal) (DotDims.plain 2000 256 256) none
      (truncf (F := Ideal) .bf16 a h1) (truncf (F := Ideal) .bf16 w h1)
      (constant ⟨2, ![2000, 256]⟩ .f32 0x00000000#32) (ix2 p q)) (broadcastTo S2000x256 b hb (ix2 p q)) = _
  rw [Cert.PlainMatmul.matmul_zero_apply, Cert.Lib.RowBroadcast.broadcastTo_1b_ab_apply (by decide) b hb p q]
  rfl

/-- The first body's first store: the hidden features of the block's rows. -/
theorem pay_hidden (x : Vec Ideal S2000x256 .f32) (w : Vec Ideal S256x256 .f32) (b α : Vec Ideal S1x256 .f32) :
    k0_pay1 x w b α = hidden x w b α := by
  funext j
  obtain ⟨p, q, rfl⟩ : ∃ (p : Fin 2000) (q : Fin 256), j = ix2 p q := ⟨j 0, j 1, eq_ix2 j⟩
  unfold k0_pay1
  simp only [shapeCast_self]
  show Scalar.select (FloatOps.cmpf (F := Ideal) (φ := .f32) .ogt (addf (F := Ideal) _ _ (ix2 p q)) _)
      (addf (F := Ideal) _ _ (ix2 p q))
      (FloatOps.mulf (F := Ideal) (φ := .f32) (broadcastTo S2000x256 (α : S1x256.Idx → EReal) _ (ix2 p q))
        (addf (F := Ideal) _ _ (ix2 p q))) = _
  rw [blockDense, Cert.Lib.RowBroadcast.broadcastTo_1b_ab_apply (by decide) (α : S1x256.Idx → EReal) _ p q]
  rfl

/-- The first body's second store: the messages of the block's rows. -/
theorem pay_message (x : Vec Ideal S2000x256 .f32) (w : Vec Ideal S256x256 .f32) (b α : Vec Ideal S1x256 .f32)
    (w₂ : Vec Ideal S256x256 .f32) (b₂ : Vec Ideal S1x256 .f32) :
    k0_pay2 x w b α w₂ b₂ = message x w b α w₂ b₂ := by
  funext j
  obtain ⟨p, q, rfl⟩ : ∃ (p : Fin 2000) (q : Fin 256), j = ix2 p q := ⟨j 0, j 1, eq_ix2 j⟩
  unfold k0_pay2
  simp only [shapeCast_self]
  rw [pay_hidden]
  exact blockDense (hidden x w b α) w₂ b₂ _ _ p q

/-- The second body's store: the result's rows, from the blocks of the aggregate and of the hidden features. -/
theorem pay_output (agg h : Vec Ideal S2000x256 .f32) (α : Vec Ideal S1x256 .f32) (w : Vec Ideal S256x256 .f32)
    (b : Vec Ideal S1x256 .f32) :
    k1_pay1 agg h α w b = output agg h α w b := by
  funext j
  obtain ⟨p, q, rfl⟩ : ∃ (p : Fin 2000) (q : Fin 256), j = ix2 p q := ⟨j 0, j 1, eq_ix2 j⟩
  unfold k1_pay1
  simp only [shapeCast_self]
  have hs : (addf (F := Ideal) (φ := .f32) (select (cmpf (F := Ideal) (φ := .f32) .ogt agg
        (broadcast S2000x256 (Scalar.ofBits (F := Ideal) .f32 0x00000000#32)))
      agg (mulf (F := Ideal) (φ := .f32) (broadcastTo S2000x256 α broadcasts_S1x256_S2000x256) agg)) h
        : FVec Ideal S2000x256 .f32) = skip agg h α := by
    funext i
    obtain ⟨p', q', rfl⟩ : ∃ (p' : Fin 2000) (q' : Fin 256), i = ix2 p' q' := ⟨i 0, i 1, eq_ix2 i⟩
    show FloatOps.addf (F := Ideal) (φ := .f32) (Scalar.select (FloatOps.cmpf (F := Ideal) (φ := .f32) .ogt (agg (ix2 p' q')) _)
      (agg (ix2 p' q')) (FloatOps.mulf (F := Ideal) (φ := .f32) (broadcastTo S2000x256 α _ (ix2 p' q')) (agg (ix2 p' q'))))
      (h (ix2 p' q')) = _
    rw [Cert.Lib.RowBroadcast.broadcastTo_1b_ab_apply (by decide) α _ p' q']
    rfl
  rw [hs]
  show FloatOps.maximumf (F := Ideal) (φ := .f32) (addf (F := Ideal) _ _ (ix2 p q)) _ = _
  rw [blockDense]
  rfl

end Cert.MsgPass

end
-- ==== Proof.Region0.lean ====
/-
  The first kernel, from blocks to arrays.

  The grid has 25 points; point `t` reads rows `2000·t … 2000·t + 1999` of the node features and the five weight arrays
  whole, and writes back rows `2000·t …` of two arrays. What it writes is the hidden features, and the messages, of
  the rows it read — and a row of either depends on the same row of the features only — so, the 25 blocks of rows
  covering all 50000 rows, the two arrays end as the hidden features and the messages of the whole feature array.
  Everything is stated for ANY contents `V` of the buffers when the kernel is entered.
-/
import proofs.«176901_j21526376087644_1_alg».proof.Proof.Gen.KernelIdeal.Frame
import proofs.«176901_j21526376087644_1_alg».proof.Proof.Payload
import Idealize.ShloMosaic.Lib.Pipeline.Value

set_option maxRecDepth 16384

noncomputable section

namespace Cert.MsgPass

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- The index maps of the first kernel's windows, over its grid: the three row-blocked windows sit at block `t`, the
    five whole-array windows at block 0. -/
theorem index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 ∧ True :=
  (by decide +kernel : ∀ t : Fin grid0.N, _)

/-- The feature block at point `t`, entry (r, k), is entry (2000·t + r, k) of the feature array. -/
theorem featBlock (c : Dev nD) (t : Fin cfg0.N) (y : S2000x256.Idx) (i : S50000x256.Idx)
    (h0 : (i 0).val = 2000 * t.val + (y 0).val) (h1 : (i 1).val = (y 1).val) :
    (iblk0 V c 0 t : S2000x256.Idx → EReal) y = (V c main_arg0 : S50000x256.Idx → EReal) i := by
  obtain ⟨e0, e1, -⟩ := index0 t
  show (V c main_arg0 : S50000x256.Idx → EReal) (((cfg0.win 0).blk t).view.emb y) = _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-! The five weight windows' blocks are their arrays. -/

theorem whole0_1 (c : Dev nD) (t : Fin cfg0.N) :
    (iblk0 V c 1 t : S256x256.Idx → EReal) = (V c main_arg3 : S256x256.Idx → EReal) := by
  obtain ⟨-, -, e0, e1, -⟩ := index0 t
  funext y
  show (V c main_arg3 : S256x256.Idx → EReal) (((cfg0.win 1).blk t).view.emb y) = _
  refine congrArg _ (funext fun a => Fin.ext ?_)
  match a with
  | ⟨0, _⟩ => show win0_1.index t (0 : Fin 2) * 256 + 1 * (y 0).val = (y 0).val; rw [e0]; omega
  | ⟨1, _⟩ => show win0_1.index t (1 : Fin 2) * 256 + 1 * (y 1).val = (y 1).val; rw [e1]; omega

theorem whole0_2 (c : Dev nD) (t : Fin cfg0.N) :
    (iblk0 V c 2 t : S1x256.Idx → EReal) = (V c main_v0 : S1x256.Idx → EReal) := by
  obtain ⟨-, -, -, -, e0, e1, -⟩ := index0 t
  funext y
  show (V c main_v0 : S1x256.Idx → EReal) (((cfg0.win 2).blk t).view.emb y) = _
  refine congrArg _ (funext fun a => Fin.ext ?_)
  match a with
  | ⟨0, _⟩ => show win0_2.index t (0 : Fin 2) * 1 + 1 * (y 0).val = (y 0).val; rw [e0]; omega
  | ⟨1, _⟩ => show win0_2.index t (1 : Fin 2) * 256 + 1 * (y 1).val = (y 1).val; rw [e1]; omega

theorem whole0_3 (c : Dev nD) (t : Fin cfg0.N) :
    (iblk0 V c 3 t : S1x256.Idx → EReal) = (V c main_v1 : S1x256.Idx → EReal) := by
  obtain ⟨-, -, -, -, -, -, e0, e1, -⟩ := index0 t
  funext y
  show (V c main_v1 : S1x256.Idx → EReal) (((cfg0.win 3).blk t).view.emb y) = _
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 256 + 1 * (y 1).val = (y 1).val; rw [e1]; omega

theorem whole0_4 (c : Dev nD) (t : Fin cfg0.N) :
    (iblk0 V c 4 t : S256x256.Idx → EReal) = (V c main_arg6 : S256x256.Idx → EReal) := by
  obtain ⟨-, -, -, -, -, -, -, -, e0, e1, -⟩ := index0 t
  funext y
  show (V c main_arg6 : S256x256.Idx → EReal) (((cfg0.win 4).blk t).view.emb y) = _
  refine congrArg _ (funext fun a => Fin.ext ?_)
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

theorem whole0_5 (c : Dev nD) (t : Fin cfg0.N) :
    (iblk0 V c 5 t : S1x256.Idx → EReal) = (V c main_v2 : S1x256.Idx → EReal) := by
  obtain ⟨-, -, -, -, -, -, -, -, -, -, e0, e1, -⟩ := index0 t
  funext y
  show (V c main_v2 : S1x256.Idx → EReal) (((cfg0.win 5).blk t).view.emb y) = _
  refine congrArg _ (funext fun a => Fin.ext ?_)
  match a with
  | ⟨0, _⟩ => show win0_5.index t (0 : Fin 2) * 1 + 1 * (y 0).val = (y 0).val; rw [e0]; omega
  | ⟨1, _⟩ => show win0_5.index t (1 : Fin 2) * 256 + 1 * (y 1).val = (y 1).val; rw [e1]; omega

/-! ## The hidden features (window 6) -/

/-- What point `t` writes back to the first result is block `t` of the hidden features of the whole feature array. -/
theorem flushed_hidden (c : Dev nD) (t : Fin cfg0.N) :
    (dat0 V c).flushed 6 t = ((cfg0.win 6).blk t).view.read (Elt Ideal)
      (hidden (V c main_arg0 : S50000x256.Idx → EReal) (V c main_arg3 : S256x256.Idx → EReal)
        (V c main_v0 : S1x256.Idx → EReal) (V c main_v1 : S1x256.Idx → EReal)) := by
  show (cfg0.win 6).cut (grid0.coords t) ((dat0 V c).after 6 t) = _
  rw [after0_6]
  unfold out0_6
  rw [View.canon_unit_zero origin2]
  simp only [View.ld_unit_zero (S := S2000x256) origin2, View.ld_unit_zero (S := S256x256) origin2, View.ld_unit_zero (S := S1x256) origin2]
  rw [pay_hidden, whole0_1 V c t, whole0_2 V c t, whole0_3 V c t]
  obtain ⟨-, -, -, -, -, -, -, -, -, -, -, -, e0, e1, -⟩ := index0 t
  funext j
  have hj0 : (j 0).val < 2000 := (j 0).isLt
  have hj1 : (j 1).val < 256 := (j 1).isLt
  show hidden _ _ _ _ j = hidden _ _ _ _ (((cfg0.win 6).blk t).view.emb j)
  refine hidden_rows _ _ _ _ _ j (((cfg0.win 6).blk t).view.emb j) ?_ fun k => ?_
  · show (j 1).val = win0_6.index t (1 : Fin 2) * 256 + 1 * (j 1).val
    rw [e1]; omega
  · refine featBlock V c t _ _ ?_ rfl
    show win0_6.index t (0 : Fin 2) * 2000 + 1 * (j 0).val = 2000 * t.val + (j 0).val
    rw [e0]; omega

/-- An index of the array lies in point `t`'s block iff its row is one of the block's 2000. -/
theorem mem_hidden (t : Fin cfg0.N) (i : S50000x256.Idx) :
    i ∈ ((cfg0.win 6).blk t).view.set ↔ ∀ a : Fin 2, win0_6.index t a * S2000x256.size a ≤ (i a).val
      ∧ (i a).val < win0_6.index t a * S2000x256.size a + S2000x256.size a := by
  show i ∈ ((View.whole main_v5_0).slice (win0_6.rect t)).set ↔ _
  rw [View.set_slice_whole, Rect.mem_set_unit]
  exact Iff.rfl

/-- Every row lies in the block of point `row / 2000`. -/
theorem cover_hidden (i : S50000x256.Idx) :
    ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, -, -, e0, e1, -⟩ := index0 t
  refine ⟨t, flush0_6 t, ?_⟩
  rw [mem_hidden]
  intro a
  match a with
  | ⟨0, _⟩ =>
    show win0_6.index t (0 : Fin 2) * 2000 ≤ (i 0).val ∧ (i 0).val < win0_6.index t (0 : Fin 2) * 2000 + 2000
    rw [e0]; show (i 0).val / 2000 * 2000 ≤ (i 0).val ∧ (i 0).val < (i 0).val / 2000 * 2000 + 2000; omega
  | ⟨1, _⟩ =>
    show win0_6.index t (1 : Fin 2) * 256 ≤ (i 1).val ∧ (i 1).val < win0_6.index t (1 : Fin 2) * 256 + 256
    rw [e1]; omega

/-- The first result array after the kernel: the hidden features of the feature array as the kernel found it. -/
theorem array_hidden (c : Dev nD) :
    (dat0 V c).arrAt 6 cfg0.N = hidden (V c main_arg0 : S50000x256.Idx → EReal) (V c main_arg3 : S256x256.Idx → EReal)
        (V c main_v0 : S1x256.Idx → EReal) (V c main_v1 : S1x256.Idx → EReal) :=
  (dat0 V c).arrAt_eq_of_cover 6 _ (fun t _ => flushed_hidden V c t) cover_hidden

/-! ## The messages (window 7) -/

/-- What point `t` writes back to the second result is block `t` of the messages of the whole feature array. -/
theorem flushed_message (c : Dev nD) (t : Fin cfg0.N) :
    (dat0 V c).flushed 7 t = ((cfg0.win 7).blk t).view.read (Elt Ideal)
      (message (V c main_arg0 : S50000x256.Idx → EReal) (V c main_arg3 : S256x256.Idx → EReal)
        (V c main_v0 : S1x256.Idx → EReal) (V c main_v1 : S1x256.Idx → EReal)
        (V c main_arg6 : S256x256.Idx → EReal) (V c main_v2 : S1x256.Idx → EReal)) := by
  show (cfg0.win 7).cut (grid0.coords t) ((dat0 V c).after 7 t) = _
  rw [after0_7]
  unfold out0_7
  rw [View.canon_unit_zero origin2]
  simp only [View.ld_unit_zero (S := S2000x256) origin2, View.ld_unit_zero (S := S256x256) origin2, View.ld_unit_zero (S := S1x256) origin2]
  rw [pay_message, whole0_1 V c t, whole0_2 V c t, whole0_3 V c t, whole0_4 V c t, whole0_5 V c t]
  obtain ⟨-, -, -, -, -, -, -, -, -, -, -, -, -, -, e0, e1, -⟩ := index0 t
  funext j
  have hj0 : (j 0).val < 2000 := (j 0).isLt
  have hj1 : (j 1).val < 256 := (j 1).isLt
  show message _ _ _ _ _ _ j = message _ _ _ _ _ _ (((cfg0.win 7).blk t).view.emb j)
  refine message_rows _ _ _ _ _ _ _ j (((cfg0.win 7).blk t).view.emb j) ?_ fun k => ?_
  · show (j 1).val = win0_7.index t (1 : Fin 2) * 256 + 1 * (j 1).val
    rw [e1]; omega
  · refine featBlock V c t _ _ ?_ rfl
    show win0_7.index t (0 : Fin 2) * 2000 + 1 * (j 0).val = 2000 * t.val + (j 0).val
    rw [e0]; omega

/-- An index of the array lies in point `t`'s block iff its row is one of the block's 2000. -/
theorem mem_message (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v5_1).slice (win0_7.rect t)).set ↔ _
  rw [View.set_slice_whole, Rect.mem_set_unit]
  exact Iff.rfl

/-- Every row lies in the block of point `row / 2000`. -/
theorem cover_message (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  let t : Fin cfg0.N := ⟨(i 0).val / 2000, by rw [hN]; omega⟩
  obtain ⟨-, -, -, -, -, -, -, -, -, -, -, -, -, -, e0, e1, -⟩ := index0 t
  refine ⟨t, flush0_7 t, ?_⟩
  rw [mem_message]
  intro a
  match a with
  | ⟨0, _⟩ =>
    show win0_7.index t (0 : Fin 2) * 2000 ≤ (i 0).val ∧ (i 0).val < win0_7.index t (0 : Fin 2) * 2000 + 2000
    rw [e0]; show (i 0).val / 2000 * 2000 ≤ (i 0).val ∧ (i 0).val < (i 0).val / 2000 * 2000 + 2000; omega
  | ⟨1, _⟩ =>
    show win0_7.index t (1 : Fin 2) * 256 ≤ (i 1).val ∧ (i 1).val < win0_7.index t (1 : Fin 2) * 256 + 256
    rw [e1]; omega

/-- The second result array after the kernel: the messages of the feature array as the kernel found it. -/
theorem array_message (c : Dev nD) :
    (dat0 V c).arrAt 7 cfg0.N = message (V c main_arg0 : S50000x256.Idx → EReal) (V c main_arg3 : S256x256.Idx → EReal)
        (V c main_v0 : S1x256.Idx → EReal) (V c main_v1 : S1x256.Idx → EReal)
        (V c main_arg6 : S256x256.Idx → EReal) (V c main_v2 : S1x256.Idx → EReal) :=
  (dat0 V c).arrAt_eq_of_cover 7 _ (fun t _ => flushed_message V c t) cover_message

end Cert.MsgPass

end
-- ==== Proof.Region1.lean ====
/-
  The second kernel, from blocks to arrays.

  Its 25 points read rows `2000·t …` of the aggregate and of the hidden features, and the slope row, the last weight
  matrix and its bias row whole; point `t` writes back rows `2000·t …` of the result. A row of the result depends on
  the same row of the aggregate and of the hidden features only, and the 25 blocks cover all 50000 rows: the result
  array ends as the last layer of the two whole arrays. Stated for ANY contents `V` of the buffers at the kernel's entry.
-/
import proofs.«176901_j21526376087644_1_alg».proof.Proof.Gen.KernelIdeal.Frame
import proofs.«176901_j21526376087644_1_alg».proof.Proof.Payload
import Idealize.ShloMosaic.Lib.Pipeline.Value

set_option maxRecDepth 16384

noncomputable section

namespace Cert.MsgPass

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin2' : (![0, 0] : Fin 2 → Nat) = fun _ => 0 := funext fun a => by fin_cases a <;> rfl

/-- The index maps of the second kernel's windows, over its grid: the three row-blocked windows sit at block `t`, the
    three whole-array windows at block 0. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ True :=
  (by decide +kernel : ∀ t : Fin grid1.N, _)

/-- The aggregate's block at point `t`, entry (r, k), is entry (2000·t + r, k) of the aggregate. -/
theorem aggBlock (c : Dev nD) (t : Fin cfg1.N) (y : S2000x256.Idx) (i : S50000x256.Idx)
    (h0 : (i 0).val = 2000 * t.val + (y 0).val) (h1 : (i 1).val = (y 1).val) :
    (iblk1 V c 0 t : S2000x256.Idx → EReal) y = (V c main_v15 : S50000x256.Idx → EReal) i := by
  obtain ⟨e0, e1, -⟩ := index1 t
  show (V c main_v15 : S50000x256.Idx → EReal) (((cfg1.win 0).blk t).view.emb y) = _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 256 + 1 * (y 1).val = (i 1).val; rw [e1, h1]; omega

/-- The hidden features' block at point `t`, entry (r, k), is entry (2000·t + r, k) of that array. -/
theorem hiddenBlock (c : Dev nD) (t : Fin cfg1.N) (y : S2000x256.Idx) (i : S50000x256.Idx)
    (h0 : (i 0).val = 2000 * t.val + (y 0).val) (h1 : (i 1).val = (y 1).val) :
    (iblk1 V c 1 t : S2000x256.Idx → EReal) y = (V c main_v5_0 : S50000x256.Idx → EReal) i := by
  obtain ⟨-, -, e0, e1, -⟩ := index1 t
  show (V c main_v5_0 : S50000x256.Idx → EReal) (((cfg1.win 1).blk t).view.emb y) = _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 256 + 1 * (y 1).val = (i 1).val; rw [e1, h1]; omega

/-! The slope row's, the weight matrix's and the bias row's blocks are their arrays. -/

theorem whole1_2 (c : Dev nD) (t : Fin cfg1.N) :
    (iblk1 V c 2 t : S1x256.Idx → EReal) = (V c main_v3 : S1x256.Idx → EReal) := by
  obtain ⟨-, -, -, -, e0, e1, -⟩ := index1 t
  funext y
  show (V c main_v3 : S1x256.Idx → EReal) (((cfg1.win 2).blk t).view.emb y) = _
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 256 + 1 * (y 1).val = (y 1).val; rw [e1]; omega

theorem whole1_3 (c : Dev nD) (t : Fin cfg1.N) :
    (iblk1 V c 3 t : S256x256.Idx → EReal) = (V c main_arg9 : S256x256.Idx → EReal) := by
  obtain ⟨-, -, -, -, -, -, e0, e1, -⟩ := index1 t
  funext y
  show (V c main_arg9 : S256x256.Idx → EReal) (((cfg1.win 3).blk t).view.emb y) = _
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

theorem whole1_4 (c : Dev nD) (t : Fin cfg1.N) :
    (iblk1 V c 4 t : S1x256.Idx → EReal) = (V c main_v4 : S1x256.Idx → EReal) := by
  obtain ⟨-, -, -, -, -, -, -, -, e0, e1, -⟩ := index1 t
  funext y
  show (V c main_v4 : S1x256.Idx → EReal) (((cfg1.win 4).blk t).view.emb y) = _
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-- What point `t` writes back is block `t` of the last layer of the whole aggregate and hidden-feature arrays. -/
theorem flushed_output (c : Dev nD) (t : Fin cfg1.N) :
    (dat1 V c).flushed 5 t = ((cfg1.win 5).blk t).view.read (Elt Ideal)
      (output (V c main_v15 : S50000x256.Idx → EReal) (V c main_v5_0 : S50000x256.Idx → EReal)
        (V c main_v3 : S1x256.Idx → EReal) (V c main_arg9 : S256x256.Idx → EReal) (V c main_v4 : S1x256.Idx → EReal)) := by
  show (cfg1.win 5).cut (grid1.coords t) ((dat1 V c).after 5 t) = _
  rw [after1_5]
  unfold out1_5
  rw [View.canon_unit_zero origin2']
  simp only [View.ld_unit_zero (S := S2000x256) origin2', View.ld_unit_zero (S := S256x256) origin2', View.ld_unit_zero (S := S1x256) origin2']
  rw [pay_output, whole1_2 V c t, whole1_3 V c t, whole1_4 V c t]
  obtain ⟨-, -, -, -, -, -, -, -, -, -, e0, e1, -⟩ := index1 t
  funext j
  have hj0 : (j 0).val < 2000 := (j 0).isLt
  have hj1 : (j 1).val < 256 := (j 1).isLt
  show output _ _ _ _ _ j = output _ _ _ _ _ (((cfg1.win 5).blk t).view.emb j)
  have hrow : (((cfg1.win 5).blk t).view.emb j 0).val = 2000 * t.val + (j 0).val := by
    show win1_5.index t (0 : Fin 2) * 2000 + 1 * (j 0).val = 2000 * t.val + (j 0).val
    rw [e0]; omega
  refine output_rows _ _ _ _ _ _ _ j (((cfg1.win 5).blk t).view.emb j) ?_ (fun k => ?_) (fun k => ?_)
  · show (j 1).val = win1_5.index t (1 : Fin 2) * 256 + 1 * (j 1).val
    rw [e1]; omega
  · exact aggBlock V c t _ _ hrow rfl
  · exact hiddenBlock V c t _ _ hrow rfl

/-- An index of the array lies in point `t`'s block iff its row is one of the block's 2000. -/
theorem mem_output (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v16).slice (win1_5.rect t)).set ↔ _
  rw [View.set_slice_whole, Rect.mem_set_unit]
  exact Iff.rfl

/-- Every row lies in the block of point `row / 2000`. -/
theorem cover_output (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  let t : Fin cfg1.N := ⟨(i 0).val / 2000, by rw [hN]; omega⟩
  obtain ⟨-, -, -, -, -, -, -, -, -, -, e0, e1, -⟩ := index1 t
  refine ⟨t, flush1_5 t, ?_⟩
  rw [mem_output]
  intro a
  match a with
  | ⟨0, _⟩ =>
    show win1_5.index t (0 : Fin 2) * 2000 ≤ (i 0).val ∧ (i 0).val < win1_5.index t (0 : Fin 2) * 2000 + 2000
    rw [e0]; show (i 0).val / 2000 * 2000 ≤ (i 0).val ∧ (i 0).val < (i 0).val / 2000 * 2000 + 2000; omega
  | ⟨1, _⟩ =>
    show win1_5.index t (1 : Fin 2) * 256 ≤ (i 1).val ∧ (i 1).val < win1_5.index t (1 : Fin 2) * 256 + 256
    rw [e1]; omega

/-- The result array after the kernel: the last layer of the aggregate and the hidden features as the kernel found them. -/
theorem array_output (c : Dev nD) :
    (dat1 V c).arrAt 5 cfg1.N = output (V c main_v15 : S50000x256.Idx → EReal) (V c main_v5_0 : S50000x256.Idx → EReal)
        (V c main_v3 : S1x256.Idx → EReal) (V c main_arg9 : S256x256.Idx → EReal) (V c main_v4 : S1x256.Idx → EReal) :=
  (dat1 V c).arrAt_eq_of_cover 5 _ (fun t _ => flushed_output V c t) cover_output

end Cert.MsgPass

end
-- ==== Proof.Aggregate.lean ====
/-
  The sum of the messages along the edges, as both programs spell it on the host: each edge's sender index is
  wrapped once if negative (`s < 0 ↦ s + 50000`), the sender's row of the messages is gathered, and the gathered rows
  are scatter-added into a zero array at the receivers' rows. The two programs use this very expression, so it is
  named here once and never opened.
-/
import proofs.«176901_j21526376087644_1_alg».proof.Proof.Gen.KernelIdeal
import Idealize.ShloMosaic.PureOps.Ideal

noncomputable section

namespace Cert.MsgPass

open Idealize.ShloMosaic Cert.KernelIdeal Cert.KernelIdeal.Facts₀

/-- The aggregate of the messages `M` over the edges `send → recv`. -/
def aggregate (M : (⟨S50000x256, .f32⟩ : BufTy).Contents (Elt Ideal)) (send recv : (⟨S800000, .i32⟩ : BufTy).Contents (Elt Ideal)) :
    (⟨S50000x256, .f32⟩ : BufTy).Contents (Elt Ideal) :=
  Host.scatterAdd (F := Ideal) scatter_S50000x256_S800000x1_S800000x256_1_0_0_1
    (broadcastInDim S50000x256 ![] bcast_S_S50000x256 (constant (F := Ideal) S_ .f32 0x00000000#32))
    (broadcastInDim S800000x1 ![0] bcast_S800000_S800000x1_0 recv)
    (Host.gather gather_S50000x256_S800000x1_S800000x256_1_0_n_n_0_1_1256 M
      (broadcastInDim S800000x1 ![0] bcast_S800000_S800000x1_0
        (select (cmpi .slt send (broadcastInDim S800000 ![] bcast_S_S800000 (constantI S_ 32 0#32)))
          (addi send (broadcastInDim S800000 ![] bcast_S_S800000 (constantI S_ 32 50000#32))) send)))

end Cert.MsgPass

end
-- ==== Proof.KernelValue.lean ====
/-
  The kernel program's result as one function of its arguments.

  Walking the boundaries of the run backwards: the result buffer holds what the second kernel wrote, the last layer
  of the aggregate and the hidden features it found; the aggregate it found is the host's sum along the edges of the
  messages the first kernel wrote; the hidden features and the messages are those of the feature array and the
  weights the first kernel found; and what the kernels found of the arguments is the arguments — the five bias and
  slope vectors each reshaped to a 1 × 256 row.
-/
import proofs.«176901_j21526376087644_1_alg».proof.Proof.Gen.KernelIdeal.Frame
import proofs.«176901_j21526376087644_1_alg».proof.Proof.Region0
import proofs.«176901_j21526376087644_1_alg».proof.Proof.Region1
import proofs.«176901_j21526376087644_1_alg».proof.Proof.Aggregate
import Idealize.ShloMosaic.Lib.ValueLayout
import Idealize.ShloMosaic.Lib.StableHlo.Run

set_option maxRecDepth 16384

noncomputable section

namespace Cert.MsgPass

open Idealize.ShloMosaic Idealize.ShloMosaic.TcCoe Idealize.ShloMosaic.ValueIdx Idealize.SL.Sem
open Idealize.ShloMosaic.Pipeline (Dat)
open Cert.KernelIdeal Cert.KernelIdeal.Gen

open Idealize.ShloMosaic.StableHlo

variable (m : (ℓ : Loc nD τ sig) → Buf (Elt Ideal) ℓ) (ρ : Dev nD → PrngReg)

/-- A vector of 256 entries reshaped to 1 × 256 is that vector as a row. -/
theorem reshape_row (v : S256.Idx → EReal) (h : S256.ShapeCasts S1x256) : shapeCast S1x256 v h = row v := by
  funext j
  obtain ⟨u, q, rfl⟩ : ∃ (u : Fin 1) (q : Fin 256), j = ix2 u q := ⟨j 0, j 1, eq_ix2 j⟩
  exact shapeCast_a_1a_apply v h u q

/-! ## What the first kernel finds: the arguments, the bias and slope vectors as rows -/

theorem entry0_arg0 (c : Dev nD) : (V1 m ρ c main_arg0 : S50000x256.Idx → EReal) = m ((c : Thread nD τ).loc main_arg0) := by
  show StableHlo.after hostOps0 (W0 m ρ c) (Proc.devRef .tc main_arg0) = _
  after_results
theorem entry0_arg3 (c : Dev nD) : (V1 m ρ c main_arg3 : S256x256.Idx → EReal) = m ((c : Thread nD τ).loc main_arg3) := by
  show StableHlo.after hostOps0 (W0 m ρ c) (Proc.devRef .tc main_arg3) = _
  after_results
theorem entry0_arg6 (c : Dev nD) : (V1 m ρ c main_arg6 : S256x256.Idx → EReal) = m ((c : Thread nD τ).loc main_arg6) := by
  show StableHlo.after hostOps0 (W0 m ρ c) (Proc.devRef .tc main_arg6) = _
  after_results
theorem row0_main_v0 (c : Dev nD) : (V1 m ρ c main_v0 : S1x256.Idx → EReal) = row (m ((c : Thread nD τ).loc main_arg4)) := by
  show StableHlo.after hostOps0 (W0 m ρ c) (Proc.devRef .tc main_v0) = _
  after_results
  exact reshape_row (m ((c : Thread nD τ).loc main_arg4)) shapeCasts_S256_S1x256
theorem row0_main_v1 (c : Dev nD) : (V1 m ρ c main_v1 : S1x256.Idx → EReal) = row (m ((c : Thread nD τ).loc main_arg5)) := by
  show StableHlo.after hostOps0 (W0 m ρ c) (Proc.devRef .tc main_v1) = _
  after_results
  exact reshape_row (m ((c : Thread nD τ).loc main_arg5)) shapeCasts_S256_S1x256
theorem row0_main_v2 (c : Dev nD) : (V1 m ρ c main_v2 : S1x256.Idx → EReal) = row (m ((c : Thread nD τ).loc main_arg7)) := by
  show StableHlo.after hostOps0 (W0 m ρ c) (Proc.devRef .tc main_v2) = _
  after_results
  exact reshape_row (m ((c : Thread nD τ).loc main_arg7)) shapeCasts_S256_S1x256
theorem row0_main_v3 (c : Dev nD) : (W1 m ρ c (Proc.devRef .tc main_v3) : S1x256.Idx → EReal) = row (m ((c : Thread nD τ).loc main_arg8)) := by
  show StableHlo.after hostOps0 (W0 m ρ c) (Proc.devRef .tc main_v3) = _
  after_results
  exact reshape_row (m ((c : Thread nD τ).loc main_arg8)) shapeCasts_S256_S1x256
theorem row0_main_v4 (c : Dev nD) : (W1 m ρ c (Proc.devRef .tc main_v4) : S1x256.Idx → EReal) = row (m ((c : Thread nD τ).loc main_arg10)) := by
  show StableHlo.after hostOps0 (W0 m ρ c) (Proc.devRef .tc main_v4) = _
  after_results
  exact reshape_row (m ((c : Thread nD τ).loc main_arg10)) shapeCasts_S256_S1x256
theorem keep0_main_arg1 (c : Dev nD) : W1 m ρ c (Proc.devRef .tc main_arg1) = m ((c : Thread nD τ).loc main_arg1) := by
  show StableHlo.after hostOps0 (W0 m ρ c) (Proc.devRef .tc main_arg1) = _
  after_results
theorem keep0_main_arg2 (c : Dev nD) : W1 m ρ c (Proc.devRef .tc main_arg2) = m ((c : Thread nD τ).loc main_arg2) := by
  show StableHlo.after hostOps0 (W0 m ρ c) (Proc.devRef .tc main_arg2) = _
  after_results
theorem keep0_main_arg9 (c : Dev nD) : W1 m ρ c (Proc.devRef .tc main_arg9) = m ((c : Thread nD τ).loc main_arg9) := by
  show StableHlo.after hostOps0 (W0 m ρ c) (Proc.devRef .tc main_arg9) = _
  after_results

/-! ## What the first kernel leaves -/

/-- The first result array: the hidden features. -/
theorem mid_hidden (c : Dev nD) : (W2 m ρ c (Proc.devRef .tc main_v5_0) : S50000x256.Idx → EReal)
    = hidden (m ((c : Thread nD τ).loc main_arg0)) (m ((c : Thread nD τ).loc main_arg3)) (row (m ((c : Thread nD τ).loc main_arg4))) (row (m ((c : Thread nD τ).loc main_arg5))) :=
  (W2_arr m ρ c 6).trans ((array_hidden (V1 m ρ) c).trans (by
    rw [entry0_arg0 m ρ c, entry0_arg3 m ρ c, row0_main_v0 m ρ c, row0_main_v1 m ρ c]))

/-- The second result array: the messages. -/
theorem mid_message (c : Dev nD) : (W2 m ρ c (Proc.devRef .tc main_v5_1) : S50000x256.Idx → EReal)
    = message (m ((c : Thread nD τ).loc main_arg0)) (m ((c : Thread nD τ).loc main_arg3)) (row (m ((c : Thread nD τ).loc main_arg4))) (row (m ((c : Thread nD τ).loc main_arg5)))
        (m ((c : Thread nD τ).loc main_arg6)) (row (m ((c : Thread nD τ).loc main_arg7))) :=
  (W2_arr m ρ c 7).trans ((array_message (V1 m ρ) c).trans (by
    rw [entry0_arg0 m ρ c, entry0_arg3 m ρ c, row0_main_v0 m ρ c, row0_main_v1 m ρ c, entry0_arg6 m ρ c, row0_main_v2 m ρ c]))

/-! ## What the second kernel finds -/

/-- The aggregate: the host's sum along the edges of the first kernel's messages. -/
theorem entry1_v15 (c : Dev nD) : (V3 m ρ c main_v15 : S50000x256.Idx → EReal)
    = aggregate (message (m ((c : Thread nD τ).loc main_arg0)) (m ((c : Thread nD τ).loc main_arg3)) (row (m ((c : Thread nD τ).loc main_arg4))) (row (m ((c : Thread nD τ).loc main_arg5)))
        (m ((c : Thread nD τ).loc main_arg6)) (row (m ((c : Thread nD τ).loc main_arg7)))) (m ((c : Thread nD τ).loc main_arg1)) (m ((c : Thread nD τ).loc main_arg2)) := by
  have e : (V3 m ρ c main_v15 : S50000x256.Idx → EReal)
      = aggregate (W2 m ρ c (Proc.devRef .tc main_v5_1)) (W2 m ρ c (Proc.devRef .tc main_arg1)) (W2 m ρ c (Proc.devRef .tc main_arg2)) := by
    show StableHlo.after hostOps1 (W2 m ρ c) (Proc.devRef .tc main_v15) = _
    after_results
    rfl
  rw [e, mid_message m ρ c, W2_of_ne m ρ c main_arg1 (by decide), W2_of_ne m ρ c main_arg2 (by decide),
    keep0_main_arg1 m ρ c, keep0_main_arg2 m ρ c]

theorem entry1_v5_0 (c : Dev nD) : (V3 m ρ c main_v5_0 : S50000x256.Idx → EReal)
    = hidden (m ((c : Thread nD τ).loc main_arg0)) (m ((c : Thread nD τ).loc main_arg3)) (row (m ((c : Thread nD τ).loc main_arg4))) (row (m ((c : Thread nD τ).loc main_arg5))) := by
  have e : (V3 m ρ c main_v5_0 : S50000x256.Idx → EReal) = W2 m ρ c (Proc.devRef .tc main_v5_0) := by
    show StableHlo.after hostOps1 (W2 m ρ c) (Proc.devRef .tc main_v5_0) = _
    after_results
  rw [e, mid_hidden m ρ c]

theorem entry1_v3 (c : Dev nD) : (V3 m ρ c main_v3 : S1x256.Idx → EReal) = row (m ((c : Thread nD τ).loc main_arg8)) := by
  have e : (V3 m ρ c main_v3 : S1x256.Idx → EReal) = W2 m ρ c (Proc.devRef .tc main_v3) := by
    show StableHlo.after hostOps1 (W2 m ρ c) (Proc.devRef .tc main_v3) = _
    after_results
  rw [e, W2_of_ne m ρ c main_v3 (by decide), row0_main_v3 m ρ c]

theorem entry1_v4 (c : Dev nD) : (V3 m ρ c main_v4 : S1x256.Idx → EReal) = row (m ((c : Thread nD τ).loc main_arg10)) := by
  have e : (V3 m ρ c main_v4 : S1x256.Idx → EReal) = W2 m ρ c (Proc.devRef .tc main_v4) := by
    show StableHlo.after hostOps1 (W2 m ρ c) (Proc.devRef .tc main_v4) = _
    after_results
  rw [e, W2_of_ne m ρ c main_v4 (by decide), row0_main_v4 m ρ c]

theorem entry1_arg9 (c : Dev nD) : (V3 m ρ c main_arg9 : S256x256.Idx → EReal) = m ((c : Thread nD τ).loc main_arg9) := by
  have e : (V3 m ρ c main_arg9 : S256x256.Idx → EReal) = W2 m ρ c (Proc.devRef .tc main_arg9) := by
    show StableHlo.after hostOps1 (W2 m ρ c) (Proc.devRef .tc main_arg9) = _
    after_results
  rw [e, W2_of_ne m ρ c main_arg9 (by decide), keep0_main_arg9 m ρ c]

/-! ## The result -/

/-- The result of the kernel program, as a function of the argument arrays. -/
def result (c : Dev nD) : S50000x256.Idx → EReal :=
  output (aggregate (message (m ((c : Thread nD τ).loc main_arg0)) (m ((c : Thread nD τ).loc main_arg3)) (row (m ((c : Thread nD τ).loc main_arg4))) (row (m ((c : Thread nD τ).loc main_arg5)))
      (m ((c : Thread nD τ).loc main_arg6)) (row (m ((c : Thread nD τ).loc main_arg7)))) (m ((c : Thread nD τ).loc main_arg1)) (m ((c : Thread nD τ).loc main_arg2)))
    (hidden (m ((c : Thread nD τ).loc main_arg0)) (m ((c : Thread nD τ).loc main_arg3)) (row (m ((c : Thread nD τ).loc main_arg4))) (row (m ((c : Thread nD τ).loc main_arg5))))
    (row (m ((c : Thread nD τ).loc main_arg8))) (m ((c : Thread nD τ).loc main_arg9)) (row (m ((c : Thread nD τ).loc main_arg10)))

/-- The result buffer at the last boundary holds `result`. -/
theorem kernel_value (c : Dev nD) : (W4 m ρ c (Proc.devRef .tc main_v16) : S50000x256.Idx → EReal) = result m c :=
  (W4_arr m ρ c 5).trans ((array_output (V3 m ρ) c).trans (by
    rw [entry1_v15 m ρ c, entry1_v5_0 m ρ c, entry1_v3 m ρ c, entry1_arg9 m ρ c, entry1_v4 m ρ c]; rfl))

end Cert.MsgPass

end
-- ==== Proof.RefValue.lean ====
/-
  The reference program's result as the same function of its arguments.

  The reference computes on whole arrays: three `dot_general`s with their biases (each bias vector broadcast to a row,
  the row to all 50000 rows), two parametric rectifiers spelt compare / multiply / select, the gather and the
  scatter-add along the edges, and a final maximum with zero. A `dot_general` contracting the columns of the left
  operand with the rows of the right is the plain sum of products on the extended reals, so, entry by entry, the
  reference's stages are the layers of `Spec.lean` at n = 50000; the sum along the edges is the very expression the
  kernel program uses.
-/
import proofs.«176901_j21526376087644_1_alg».proof.Proof.Gen.ReferenceIdeal.Read
import proofs.«176901_j21526376087644_1_alg».proof.Proof.Spec
import proofs.«176901_j21526376087644_1_alg».proof.Proof.Aggregate

set_option maxRecDepth 16384

noncomputable section

namespace Cert.MsgPass

open Idealize.ShloMosaic Idealize.ShloMosaic.ValueIdx Idealize.SL.Sem
open Cert.ReferenceIdeal Cert.ReferenceIdeal.Read

/-- The left operand of a product is read at (row of the result, contraction position). -/
theorem lidx_eq (i : S50000x256.Idx) (k : Fin 256) : lidx_main_v0 i k = ix2 (i 0) k :=
  funext fun a => Fin.ext (by match a with | ⟨0, _⟩ => rfl | ⟨1, _⟩ => rfl)

/-- The right operand is read at (contraction position, column of the result). -/
theorem ridx_eq (i : S50000x256.Idx) (k : Fin 256) : ridx_main_v0 i k = ix2 k (i 1) :=
  funext fun a => Fin.ext (by match a with | ⟨0, _⟩ => rfl | ⟨1, _⟩ => rfl)

/-- A bias vector broadcast to 1 × 256 and then along the 50000 rows, read at an entry: the vector as a row, at the
    entry's column. -/
theorem bias_apply (v : S256.Idx → EReal) (i : S50000x256.Idx) :
    val_main_v2 (F := Ideal) v i = row v (ix2 (0 : Fin 1) (i 1)) := by
  rw [val_main_v2_apply, val_main_v1_apply]
  exact congrArg v (funext fun a => Fin.ext (by match a with | ⟨0, _⟩ => rfl))

/-- A `dot_general` plus its broadcast bias, read at an entry, is the dense layer's entry. -/
theorem refDense (a : S50000x256.Idx → EReal) (w : S256x256.Idx → EReal) (v : S256.Idx → EReal) (i : S50000x256.Idx) :
    FloatOps.addf (F := Ideal) (φ := .f32) (val_main_v0 (F := Ideal) a w i) (val_main_v2 (F := Ideal) v i)
      = dense a w (row v) (i 0) (i 1) := by
  rw [val_main_v0_apply, bias_apply]
  unfold dense
  simp only [lidx_eq, ridx_eq]
  rfl

/-- The reference's hidden features. -/
theorem ref_hidden (x0 : S50000x256.Idx → EReal) (x3 : S256x256.Idx → EReal) (x4 x5 : S256.Idx → EReal) :
    val_main_v9 (F := Ideal) x0 x3 x4 x5 = hidden x0 x3 (row x4) (row x5) := by
  funext i
  show Scalar.select (FloatOps.cmpf (F := Ideal) (φ := .f32) .ogt
        (FloatOps.addf (F := Ideal) (φ := .f32) (val_main_v0 (F := Ideal) x0 x3 i) (val_main_v2 (F := Ideal) x4 i)) _)
      (FloatOps.addf (F := Ideal) (φ := .f32) (val_main_v0 (F := Ideal) x0 x3 i) (val_main_v2 (F := Ideal) x4 i))
      (FloatOps.mulf (F := Ideal) (φ := .f32) (val_main_v2 (F := Ideal) x5 i)
        (FloatOps.addf (F := Ideal) (φ := .f32) (val_main_v0 (F := Ideal) x0 x3 i) (val_main_v2 (F := Ideal) x4 i))) = _
  rw [refDense, bias_apply]
  rfl

/-- The reference's messages. -/
theorem ref_message (x0 : S50000x256.Idx → EReal) (x3 : S256x256.Idx → EReal) (x4 x5 : S256.Idx → EReal)
    (x6 : S256x256.Idx → EReal) (x7 : S256.Idx → EReal) :
    val_main_v13 (F := Ideal) x0 x3 x4 x5 x6 x7 = message x0 x3 (row x4) (row x5) x6 (row x7) := by
  funext i
  show FloatOps.addf (F := Ideal) (φ := .f32) (val_main_v0 (F := Ideal) (val_main_v9 (F := Ideal) x0 x3 x4 x5) x6 i)
      (val_main_v2 (F := Ideal) x7 i) = _
  rw [refDense, ref_hidden]
  rfl

/-- The reference's sum along the edges is the kernel program's expression. -/
theorem ref_aggregate (x0 : S50000x256.Idx → EReal) (x1 x2 : (⟨S800000, .i32⟩ : BufTy).Contents (Elt Ideal))
    (x3 : S256x256.Idx → EReal) (x4 x5 : S256.Idx → EReal) (x6 : S256x256.Idx → EReal) (x7 : S256.Idx → EReal) :
    val_main_v23 (F := Ideal) x0 x1 x2 x3 x4 x5 x6 x7 = aggregate (val_main_v13 (F := Ideal) x0 x3 x4 x5 x6 x7) x1 x2 := rfl

/-- The rectified aggregate plus the hidden features, as the reference spells it on whole arrays — for ANY aggregate
    `A` and hidden features `H`. -/
theorem refSkip (A H : S50000x256.Idx → EReal) (v : S256.Idx → EReal) :
    addf (F := Ideal) (φ := .f32) (select (cmpf (F := Ideal) (φ := .f32) .ogt A (val_main_v24 (F := Ideal))) A
      (mulf (F := Ideal) (φ := .f32) (val_main_v27 (F := Ideal) v) A)) H = skip A H (row v) := by
  funext j
  show FloatOps.addf (F := Ideal) (φ := .f32) (Scalar.select (FloatOps.cmpf (F := Ideal) (φ := .f32) .ogt (A j) _) (A j)
      (FloatOps.mulf (F := Ideal) (φ := .f32) (val_main_v2 (F := Ideal) v j) (A j))) (H j) = _
  rw [bias_apply]
  rfl

/-- The last layer and the clamp at zero, as the reference spells them on whole arrays — for ANY operand `S`. -/
theorem refFinal (S : S50000x256.Idx → EReal) (w : S256x256.Idx → EReal) (v : S256.Idx → EReal) :
    maximumf (F := Ideal) (φ := .f32) (addf (F := Ideal) (φ := .f32) (val_main_v0 (F := Ideal) S w) (val_main_v2 (F := Ideal) v))
        (val_main_call2_v0 (F := Ideal))
      = fun i => FloatOps.maximumf (F := Ideal) (φ := .f32) (dense S w (row v) (i 0) (i 1)) zeroWord := by
  funext i
  show FloatOps.maximumf (F := Ideal) (φ := .f32)
      (FloatOps.addf (F := Ideal) (φ := .f32) (val_main_v0 (F := Ideal) S w i) (val_main_v2 (F := Ideal) v i)) _ = _
  rw [refDense]
  rfl

/-- The reference's result. -/
theorem ref_output (x0 : S50000x256.Idx → EReal) (x1 x2 : (⟨S800000, .i32⟩ : BufTy).Contents (Elt Ideal))
    (x3 : S256x256.Idx → EReal) (x4 x5 : S256.Idx → EReal) (x6 : S256x256.Idx → EReal) (x7 x8 : S256.Idx → EReal)
    (x9 : S256x256.Idx → EReal) (x10 : S256.Idx → EReal) :
    val_main_v35 (F := Ideal) x0 x1 x2 x3 x4 x5 x6 x7 x8 x9 x10
      = output (aggregate (message x0 x3 (row x4) (row x5) x6 (row x7)) x1 x2) (hidden x0 x3 (row x4) (row x5))
          (row x8) x9 (row x10) := by
  have e30 : val_main_v30 (F := Ideal) x0 x1 x2 x3 x4 x5 x6 x7 x8
      = skip (val_main_v23 (F := Ideal) x0 x1 x2 x3 x4 x5 x6 x7) (val_main_v9 (F := Ideal) x0 x3 x4 x5) (row x8) :=
    refSkip (val_main_v23 (F := Ideal) x0 x1 x2 x3 x4 x5 x6 x7) (val_main_v9 (F := Ideal) x0 x3 x4 x5) x8
  have e35 : val_main_v35 (F := Ideal) x0 x1 x2 x3 x4 x5 x6 x7 x8 x9 x10
      = fun i => FloatOps.maximumf (F := Ideal) (φ := .f32)
          (dense (val_main_v30 (F := Ideal) x0 x1 x2 x3 x4 x5 x6 x7 x8) x9 (row x10) (i 0) (i 1)) zeroWord :=
    refFinal (val_main_v30 (F := Ideal) x0 x1 x2 x3 x4 x5 x6 x7 x8) x9 x10
  rw [e35, e30, ref_aggregate, ref_message, ref_hidden]
  rfl

end Cert.MsgPass

end
-- ==== Proof.lean ====
/-
  One round of message passing over a graph of 50000 nodes and 800000 edges, computed by two fused kernels with the
  host's gather and scatter-add between them, against the same computation on whole arrays.

  Both programs compute, on the extended reals,
      h   = prelu_α (x · W_pre + b_pre)                  the hidden features
      msg = h · W_mp + b_mp                              the messages
      agg = Σ over edges (s → r) of row s of msg, into row r
      out = max ((prelu_α' (agg) + h) · W_post + b_post, 0).
  The kernels work on blocks of 2000 rows with the operands of each product rounded to a shorter float format; on
  the extended reals the rounding is the identity, a product into a zero accumulator is the plain sum of products,
  and a row of each layer reads the same row of its operand only, so the 25 blocks assemble to the whole-array
  layers. The sum along the edges is the same host expression in both programs. No law of arithmetic beyond the
  definitions is used, so the precondition (finite inputs) is never opened.

  The three frames are the generated ones (the reference's is its run with the result dropped); the idealization
  rewrote nothing, so `preserves` is `True`; `algebraic` puts the two runs side by side at one function `result` of
  the arguments.
-/
import proofs.«176901_j21526376087644_1_alg».proof.Defs
import proofs.«176901_j21526376087644_1_alg».proof.Proof.Gen.Kernel
import proofs.«176901_j21526376087644_1_alg».proof.Proof.Gen.Kernel.Skeleton
import proofs.«176901_j21526376087644_1_alg».proof.Proof.Gen.Kernel.Launch
import proofs.«176901_j21526376087644_1_alg».proof.Proof.Gen.Kernel.Points
import proofs.«176901_j21526376087644_1_alg».proof.Proof.Gen.Kernel.Frame
import proofs.«176901_j21526376087644_1_alg».proof.Proof.Gen.KernelIdeal
import proofs.«176901_j21526376087644_1_alg».proof.Proof.Gen.KernelIdeal.Skeleton
import proofs.«176901_j21526376087644_1_alg».proof.Proof.Gen.KernelIdeal.Launch
import proofs.«176901_j21526376087644_1_alg».proof.Proof.Gen.KernelIdeal.Points
import proofs.«176901_j21526376087644_1_alg».proof.Proof.Gen.KernelIdeal.Frame
import proofs.«176901_j21526376087644_1_alg».proof.Proof.Gen.ReferenceIdeal
import proofs.«176901_j21526376087644_1_alg».proof.Proof.Gen.Pre_finite_inputs
import proofs.«176901_j21526376087644_1_alg».proof.Proof.Gen.ReferenceIdeal.Run
import proofs.«176901_j21526376087644_1_alg».proof.Proof.Gen.ReferenceIdeal.Read
import proofs.«176901_j21526376087644_1_alg».proof.Proof.KernelRun
import proofs.«176901_j21526376087644_1_alg».proof.Proof.KernelValue
import proofs.«176901_j21526376087644_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result buffer at `result` of the
    arguments: the kernel program by its run read through its boundaries, the reference by its run read entry by
    entry. -/
theorem algebraic : Cert.algebraic_KernelIdeal_ReferenceIdeal := by
  intro m ρ m' ρ' _ hagree
  refine ⟨fun c => Cert.MsgPass.result m c, ?_, ?_⟩
  · exact (θ_run Cert.KernelIdeal.defs _ _).mono
      (fun r h c => ⟨(h c).1.trans (Cert.MsgPass.kernel_value m ρ c), (h c).2⟩)
      (Cert.MsgPass.kernel_run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v35_eq, Cert.MsgPass.ref_output]
    obtain ⟨h0, h1, h2, h3, h4, h5, h6, h7, h8, h9, h10⟩ := hagree c
    rw [h0, h1, h2, h3, h4, h5, h6, h7, h8, h9, h10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
